-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x192x56x56 : Shape := ⟨4, ![64, 192, 56, 56]⟩
abbrev S_ : Shape := ⟨0, ![]⟩

class Facts : Prop where
  bcast_S_S64x192x56x56 : S_.BroadcastsInDim S64x192x56x56 (![] : Fin 0 → Fin S64x192x56x56.rank)
  reducesTo_S64x192x56x56_S_d0_1_2_3 : S64x192x56x56.ReducesTo [0, 1, 2, 3] S_
  h_S_ : 0 < S_.numel

variable [Facts]

def fn {F : FTy → Type} [FloatOps F] (main_arg0 : FVec F S64x192x56x56 .f32) : IVec S_ 1 :=
  let main_v0 : FVec F S64x192x56x56 .f32 := Host.absf main_arg0
  let main_cst : FVec F S_ .f32 := constant S_ .f32 0x7F800000#32
  let main_v1 : FVec F S64x192x56x56 .f32 := broadcastInDim S64x192x56x56 ![] bcast_S_S64x192x56x56 main_cst
  let main_v2 : IVec S64x192x56x56 1 := cmpf .olt main_v0 main_v1
  let main_c : IVec S_ 1 := constantI S_ 1 1#1
  let main_v3 : IVec S_ 1 := (fun x v => Host.reduce IntOp.andi x v reducesTo_S64x192x56x56_S_d0_1_2_3 h_S_) main_v2 main_c
  main_v3
-- ==== Kernel.lean ====
abbrev S64x192x56x56 : Shape := ⟨4, ![64, 192, 56, 56]⟩
abbrev S64x56x56x192 : Shape := ⟨4, ![64, 56, 56, 192]⟩
abbrev S200704x192 : Shape := ⟨2, ![200704, 192]⟩
abbrev S200704x384 : Shape := ⟨2, ![200704, 384]⟩
abbrev S7168x192 : Shape := ⟨2, ![7168, 192]⟩
abbrev S7168x384 : Shape := ⟨2, ![7168, 384]⟩
abbrev S192x384 : Shape := ⟨2, ![192, 384]⟩
abbrev S64x56x56x384 : Shape := ⟨4, ![64, 56, 56, 384]⟩
abbrev S64x384x56x56 : Shape := ⟨4, ![64, 384, 56, 56]⟩

abbrev nBuf : Space → Nat
  | .hbm => 6
  | .vmem => 4
  | .smem => 0
  | _ => 0

abbrev bufTy : (tb : Table) → Fin (tcTables nBuf tb) → BufTy
  | .hbm, ⟨0, _⟩ => ⟨S64x192x56x56, .f32⟩
  | .hbm, ⟨1, _⟩ => ⟨S64x56x56x192, .f32⟩
  | .hbm, ⟨2, _⟩ => ⟨S200704x192, .f32⟩
  | .hbm, ⟨3, _⟩ => ⟨S200704x384, .f32⟩
  | .hbm, ⟨4, _⟩ => ⟨S64x56x56x384, .f32⟩
  | .hbm, ⟨5, _⟩ => ⟨S64x384x56x56, .f32⟩
  | .local _ .vmem, ⟨0, _⟩ => ⟨S7168x192, .f32⟩
  | .local _ .vmem, ⟨1, _⟩ => ⟨S7168x192, .f32⟩
  | .local _ .vmem, ⟨2, _⟩ => ⟨S7168x384, .f32⟩
  | .local _ .vmem, ⟨3, _⟩ => ⟨S7168x384, .f32⟩
  | _, _ => ⟨S64x192x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7168x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7168x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S64x192x56x56_S64x56x56x192_0_2_3_1 : S64x192x56x56.Transposes [0, 2, 3, 1] S64x56x56x192
  shapeCasts_S64x56x56x192_S200704x192 : S64x56x56x192.ShapeCasts S200704x192
  iota_S192x384_d0_w32 : S192x384.Iotas .tc 32 [0]
  iota_S192x384_d1_w32 : S192x384.Iotas .tc 32 [1]
  inb_S7168x192_S7168x192_0_0 : ∀ a, (![0, 0] : Fin 2 → Nat) a + S7168x192.size a ≤ S7168x192.size a
  h_S7168x192 : 0 < S7168x192.numel
  shapeCasts_S7168x192_S7168x192 : S7168x192.ShapeCasts S7168x192
  inb_S7168x384_S7168x384_0_0 : ∀ a, (![0, 0] : Fin 2 → Nat) a + S7168x384.size a ≤ S7168x384.size a
  h_S7168x384 : 0 < S7168x384.numel
  shapeCasts_S200704x384_S64x56x56x384 : S200704x384.ShapeCasts S64x56x56x384
  transposes_S64x56x56x384_S64x384x56x56_0_3_1_2 : S64x56x56x384.Transposes [0, 3, 1, 2] S64x384x56x56
  dot_S7168x192_S192x384_S7168x384_1_0_0_1_n_n_wf : DotDims.WF S7168x192 S192x384 S7168x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7168x192.size a ≤ S200704x192.size a
  hwx0_0 : ∀ i : grid0.Coords, EltTy.bits .f32 = 32 ∨ (Rect.block (s := S200704x192) S7168x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S7168x384.size a ≤ S200704x384.size a
  hwx0_1 : ∀ i : grid0.Coords, EltTy.bits .f32 = 32 ∨ (Rect.block (s := S200704x384) S7168x384.size (cc0_transform_1 i) (hinb0_1 i)).WholeWords (EltTy.packing .f32)

variable [Facts₀]

def dot_S7168x192_S192x384_S7168x384_1_0_0_1_n_n : DotDims S7168x192 S192x384 S7168x384 where
  lhsContracting := [1]
  rhsContracting := [0]
  lhsNonContracting := [0]
  rhsNonContracting := [1]
  lhsBatch := []
  rhsBatch := []
  wf := dot_S7168x192_S192x384_S7168x384_1_0_0_1_n_n_wf

abbrev win0_0 : Pipeline.Window sig grid0 :=
  Pipeline.Window.ofSpec (Memref.whole main_v1) S7168x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S7168x384.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x192x56x56 : Shape := ⟨4, ![64, 192, 56, 56]⟩
abbrev S192 : Shape := ⟨1, ![192]⟩
abbrev S_ : Shape := ⟨0, ![]⟩
abbrev S64x384x56x56 : Shape := ⟨4, ![64, 384, 56, 56]⟩
abbrev S192x1 : Shape := ⟨2, ![192, 1]⟩

abbrev nBuf : Space → Nat
  | .hbm => 13
  | .vmem => 0
  | .smem => 0
  | _ => 0

abbrev bufTy : (tb : Table) → Fin (tcTables nBuf tb) → BufTy
  | .hbm, ⟨0, _⟩ => ⟨S64x192x56x56, .f32⟩
  | .hbm, ⟨1, _⟩ => ⟨S192, .i32⟩
  | .hbm, ⟨2, _⟩ => ⟨S_, .f32⟩
  | .hbm, ⟨3, _⟩ => ⟨S64x384x56x56, .f32⟩
  | .hbm, ⟨4, _⟩ => ⟨S_, .i32⟩
  | .hbm, ⟨5, _⟩ => ⟨S192, .i32⟩
  | .hbm, ⟨6, _⟩ => ⟨S192, .i1⟩
  | .hbm, ⟨7, _⟩ => ⟨S_, .i32⟩
  | .hbm, ⟨8, _⟩ => ⟨S192, .i32⟩
  | .hbm, ⟨9, _⟩ => ⟨S192, .i32⟩
  | .hbm, ⟨10, _⟩ => ⟨S192, .i32⟩
  | .hbm, ⟨11, _⟩ => ⟨S192x1, .i32⟩
  | .hbm, ⟨12, _⟩ => ⟨S64x384x56x56, .f32⟩
  | _, _ => ⟨S64x192x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_cst : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S64x384x56x56 : S_.BroadcastsInDim S64x384x56x56 (![] : Fin 0 → Fin S64x384x56x56.rank)
  bcast_S_S192 : S_.BroadcastsInDim S192 (![] : Fin 0 → Fin S192.rank)
  bcast_S192_S192x1_0 : S192.BroadcastsInDim S192x1 (![0] : Fin 1 → Fin S192x1.rank)
  scatter_S64x384x56x56_S192x1_S64x192x56x56_023_1_1_1_wf : ScatterDims.WF S64x384x56x56 S192x1 S64x192x56x56 [0, 2, 3] [1] [1] 1

variable [Facts₀]

def scatter_S64x384x56x56_S192x1_S64x192x56x56_023_1_1_1 : ScatterDims S64x384x56x56 S192x1 S64x192x56x56 where
  updateWindowDims := [0, 2, 3]
  insertedWindowDims := [1]
  scatterDimsToOperandDims := [1]
  indexVectorDim := 1
  wf := scatter_S64x384x56x56_S192x1_S64x192x56x56_023_1_1_1_wf

class Facts : Prop extends Facts₀ where

variable [Facts]
-- ==== Proof.LibMatmulRead.lean ====
/-
  A PLAIN MATRIX PRODUCT READ AT AN ENTRY, at the exact values.

  The product of an m×k matrix A and a k×n matrix B accumulated into zeros is, at entry (a, b), the sum over the
  contracted coordinate c < k of A (a, c) · B (c, b): the accumulator's zero is the neutral element of +, and the one-axis
  contraction index is its one coordinate. Stated for arbitrary extents and element formats (a change of float format is
  the identity at the exact values), so it serves every matrix product of a kernel body whose dimension numbers are the
  plain ones (contract the left operand's axis 1 with the right operand's axis 0, no batch axes).
-/
import Idealize.ShloMosaic.PureOps.Ideal
import Idealize.ShloMosaic.PureOps.Ideal.Laws
import Idealize.ShloMosaic.Lib.ValueIdx
import Idealize.ShloMosaic.Lib.StackMember

noncomputable section

open scoped BigOperators
open Idealize.ShloMosaic Idealize.ShloMosaic.ValueIdx Idealize.ShloMosaic.StackMember

namespace Cert.MatmulRead

/-- A plain matrix product into a zero accumulator, read at an entry: the sum over the contracted coordinate. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  refine (Ideal.matmul_constant_zero_apply (DotDims.plain m k n) prec A B (ix2 a b)).trans ?_
  refine (Ideal.dotGeneral_apply (DotDims.plain m k n) prec default A B (ix2 a b)).symm.trans ?_
  exact dotGeneral_plain_apply prec A B a b

/-- The same sum with the contracted coordinate a natural number below k. -/
theorem matmul_plain_zero_apply_range {m k n : ℕ} {φ₁ φ₂ : FTy} (prec : Option ContractPrecision)
    (A : FVec Ideal ⟨2, ![m, k]⟩ φ₁) (B : FVec Ideal ⟨2, ![k, n]⟩ φ₂) (a : Fin m) (b : Fin n)
    (f : ℕ → EReal) (hf : ∀ c : Fin k, A (ix2 a c) * B (ix2 c b) = f c.val) :
    matmul (DotDims.plain m k n) prec A B (constant (F := Ideal) ⟨2, ![m, n]⟩ .f32 0x00000000#32) (ix2 a b)
      = ∑ c : Fin k, f c.val := by
  rw [matmul_plain_zero_apply]
  exact Finset.sum_congr rfl fun c _ => hf c

end Cert.MatmulRead

end
-- ==== Proof.Spread.lean ====
/-
  The function both programs compute, stated once over literal shapes and mentioning neither program.

  An array `x` of extents 64 × 192 × 56 × 56 (batch, channel, height, width) is spread along the channel axis into an
  array of extents 64 × 384 × 56 × 56: channel `2c` of the result is channel `c` of `x`, and every odd channel is zero.
  At an index `(b, j, h, w)` of the result this reads: `x (b, j / 2, h, w)` when `j` is even, `0` when `j` is odd.
-/
import Idealize.ShloMosaic.Lib.ValueIdx

noncomputable section

namespace Cert.Spread

open Idealize.ShloMosaic Idealize.ShloMosaic.ValueIdx

/-- Half of a channel number below 384 is a channel number below 192. -/
def half (j : Fin 384) : Fin 192 := ⟨j.val / 2, by omega⟩

@[simp] theorem half_val (j : Fin 384) : (half j).val = j.val / 2 := rfl

/-- The spread array at explicit coordinates: the entry of `x` at half the channel number on an even channel, zero on
    an odd one. -/
def spreadAt (x : (⟨4, ![64, 192, 56, 56]⟩ : Shape).Idx → EReal) (b : Fin 64) (j : Fin 384) (h : Fin 56) (w : Fin 56) : EReal :=
  if j.val % 2 = 0 then x (ix4 b (half j) h w) else 0

/-- The spread array as one function of the index. -/
def spread (x : (⟨4, ![64, 192, 56, 56]⟩ : Shape).Idx → EReal) : (⟨4, ![64, 384, 56, 56]⟩ : Shape).Idx → EReal :=
  fun i => spreadAt x (i 0) (i 1) (i 2) (i 3)

theorem spread_ix4 (x : (⟨4, ![64, 192, 56, 56]⟩ : Shape).Idx → EReal) (b : Fin 64) (j : Fin 384) (h : Fin 56) (w : Fin 56) :
    spread x (ix4 b j h w) = spreadAt x b j h w := rfl

/-- On an even channel `2c` the spread array holds channel `c` of `x`. -/
theorem spreadAt_even (x : (⟨4, ![64, 192, 56, 56]⟩ : Shape).Idx → EReal) (b : Fin 64) (c : Fin 192) (j : Fin 384)
    (h : Fin 56) (w : Fin 56) (hj : j.val = 2 * c.val) : spreadAt x b j h w = x (ix4 b c h w) := by
  have hc : half j = c := Fin.ext (by simp only [half_val]; omega)
  unfold spreadAt
  rw [if_pos (by omega), hc]

/-- On an odd channel the spread array is zero. -/
theorem spreadAt_odd (x : (⟨4, ![64, 192, 56, 56]⟩ : Shape).Idx → EReal) (b : Fin 64) (j : Fin 384)
    (h : Fin 56) (w : Fin 56) (hj : j.val % 2 = 1) : spreadAt x b j h w = 0 := by
  unfold spreadAt
  rw [if_neg (by omega)]

end Cert.Spread

end
-- ==== Proof.OneHotRow.lean ====
/-
  A row times the one-hot spreading matrix.

  The body multiplies its 7168 × 192 block `X` by the 192 × 384 matrix `E` with `E (c, q) = 1` when `q = 2c` and `0`
  otherwise. At the exact values the entry `(r, q)` of the product is `∑ c, X (r, c) · E (c, q)`. Every term with
  `q ≠ 2c` is `X (r, c) · 0 = 0` (on the extended reals too: `x · 0 = 0` for every `x`), so an even column `q` keeps the
  single term `X (r, q / 2) · 1 = X (r, q / 2)`, and an odd column keeps none: the product row is the row of `X` spread
  onto the even columns.
-/
import proofs.«120600_g80788334838274_cont_9to1_m_29_6_alg».proof.Proof.Gen.KernelIdeal.Skeleton
import proofs.«120600_g80788334838274_cont_9to1_m_29_6_alg».proof.Proof.LibMatmulRead
import proofs.«120600_g80788334838274_cont_9to1_m_29_6_alg».proof.Proof.Spread
import Idealize.ShloMosaic.Lib.Pipeline.Value
import Idealize.ShloMosaic.Lib.IdealHost

noncomputable section

open scoped BigOperators

namespace Cert.KernelIdeal.OneHotRow

open Cert.KernelIdeal Cert.KernelIdeal.Gen Idealize.ShloMosaic Idealize.ShloMosaic.ValueIdx

/-- As 32-bit words, twice a row number below 192 equals a column number below 384 exactly when it does as a natural
    number: neither side reaches 2³². -/
theorem double_eq_word (c : Fin 192) (q : Fin 384) :
    IntOp.cmpi .eq (IntOp.muli 2#32 (BitVec.ofNat 32 c.val)) (BitVec.ofNat 32 q.val) = if 2 * c.val = q.val then 1#1 else 0#1 := by
  have hc := c.isLt
  have hq := q.isLt
  have hmul : IntOp.muli 2#32 (BitVec.ofNat 32 c.val) = BitVec.ofNat 32 (2 * c.val) := by
    unfold IntOp.muli
    apply BitVec.eq_of_toNat_eq
    simp only [BitVec.toNat_mul, BitVec.toNat_ofNat]
    omega
  rw [hmul]
  unfold IntOp.cmpi
  by_cases h : 2 * c.val = q.val
  · rw [if_pos h, h]
    simp
  · rw [if_neg h]
    have hne : BitVec.ofNat 32 (2 * c.val) ≠ BitVec.ofNat 32 q.val := by
      intro e
      have := congrArg BitVec.toNat e
      simp only [BitVec.toNat_ofNat] at this
      omega
    rw [beq_eq_false_iff_ne.mpr hne]
    rfl

/-- The spreading matrix as the body builds it: one where the column number is twice the row number, zero elsewhere. -/
def E : FVec Ideal S192x384 .f32 :=
  select (cmpi .eq (muli (broadcast S192x384 2#32) (iota .tc S192x384 32 [0] iota_S192x384_d0_w32))
      (iota .tc S192x384 32 [1] iota_S192x384_d1_w32))
    (broadcast S192x384 (Scalar.ofBits (F := Ideal) .f32 0x3F800000#32))
    (broadcast S192x384 (Scalar.ofBits (F := Ideal) .f32 0x00000000#32))

/-- Its entry at row `c`, column `q`. -/
theorem E_apply (c : Fin 192) (q : Fin 384) : E (ix2 c q) = if 2 * c.val = q.val then (1 : EReal) else 0 := by
  unfold E
  rw [select_apply]
  have hcond : cmpi .eq (muli (broadcast S192x384 2#32) (iota .tc S192x384 32 [0] iota_S192x384_d0_w32))
      (iota .tc S192x384 32 [1] iota_S192x384_d1_w32) (ix2 c q) = if 2 * c.val = q.val then 1#1 else 0#1 := by
    show IntOp.cmpi .eq (IntOp.muli 2#32 (iota .tc S192x384 32 [0] iota_S192x384_d0_w32 (ix2 c q)))
      (iota .tc S192x384 32 [1] iota_S192x384_d1_w32 (ix2 c q)) = _
    rw [iota_single_apply, iota_single_apply]
    exact double_eq_word c q
  rw [hcond]
  by_cases h : 2 * c.val = q.val
  · rw [if_pos h, if_pos h, select_one]
    exact Ideal.ofBits_one_f32
  · rw [if_neg h, if_neg h, select_zero]
    exact Ideal.ofBits_zero_f32

/-- The body's payload is the product of the loaded block with the spreading matrix, accumulated into zeros. -/
theorem pay_eq (x0 : FVec Ideal S7168x192 .f32) :
    k0_pay1 (F := Ideal) x0 = matmul (DotDims.plain 7168 192 384) none x0 E (constant (F := Ideal) S7168x384 .f32 0x00000000#32) := by
  unfold k0_pay1 E
  dsimp only
  rw [shapeCast_self]
  rfl

/-- A sum over the rows `c` of the spreading matrix of `a c` where `q = 2c` and zero elsewhere: `a (q / 2)` for an even
    column, zero for an odd one. -/
theorem sum_onehot (a : Fin 192 → EReal) (q : Fin 384) :
    (∑ c : Fin 192, a c * (if 2 * c.val = q.val then (1 : EReal) else 0)) = if q.val % 2 = 0 then a (Spread.half q) else 0 := by
  by_cases hq : q.val % 2 = 0
  · rw [if_pos hq, Finset.sum_eq_single (Spread.half q)]
    · rw [if_pos (by simp only [Spread.half_val]; omega), mul_one]
    · intro c _ hc
      rw [if_neg (fun h => hc (Fin.ext (by simp only [Spread.half_val]; omega))), mul_zero]
    · intro h; exact absurd (Finset.mem_univ _) h
  · rw [if_neg hq]
    refine Finset.sum_eq_zero fun c _ => ?_
    rw [if_neg (by omega), mul_zero]

/-- THE PAYLOAD AT AN ENTRY: row `r`, column `q` of what the body stores is the loaded block's entry at row `r`, column
    `q / 2` when `q` is even, and zero when `q` is odd. -/
theorem pay_apply (x0 : FVec Ideal S7168x192 .f32) (r : Fin 7168) (q : Fin 384) :
    k0_pay1 (F := Ideal) x0 (ix2 r q) = if q.val % 2 = 0 then x0 (ix2 r (Spread.half q)) else 0 := by
  rw [pay_eq]
  refine (Cert.MatmulRead.matmul_plain_zero_apply none x0 E r q).trans ?_
  simp only [E_apply]
  exact sum_onehot (fun c => x0 (ix2 r c)) q

end Cert.KernelIdeal.OneHotRow

end
-- ==== Proof.SpreadRows.lean ====
/-
  Spreading the rows of a matrix, and the two relayouts around it.

  The kernel does not spread the channel axis of the 64 × 192 × 56 × 56 array in place. It first moves the channel axis
  last and flattens the other three axes, `(b, c, h, w) ↦ (n, c)` with `n = (b · 56 + h) · 56 + w`, getting a 200704 × 192
  matrix; spreads every row of that matrix onto the even columns of a 200704 × 384 matrix; and undoes the relayout,
  `(n, q) ↦ (b, q, h, w)`. Since the relayout never touches the channel coordinate, and `n` determines `(b, h, w)`,
  spreading the rows of the matrix is spreading the channels of the array: this file proves exactly that, for any array.
-/
import proofs.«120600_g80788334838274_cont_9to1_m_29_6_alg».proof.Proof.Spread
import Idealize.ShloMosaic.Lib.Pipeline.Value

noncomputable section

namespace Cert.SpreadRows

open Idealize.ShloMosaic Idealize.ShloMosaic.ValueIdx

abbrev A4 : Shape := ⟨4, ![64, 192, 56, 56]⟩
abbrev A4t : Shape := ⟨4, ![64, 56, 56, 192]⟩
abbrev M2 : Shape := ⟨2, ![200704, 192]⟩
abbrev N2 : Shape := ⟨2, ![200704, 384]⟩
abbrev B4t : Shape := ⟨4, ![64, 56, 56, 384]⟩
abbrev B4 : Shape := ⟨4, ![64, 384, 56, 56]⟩

/-- A matrix with 192 columns spread row by row onto the even columns of a matrix with 384 columns. -/
def spreadRows (v : M2.Idx → EReal) : N2.Idx → EReal := fun i =>
  if (i 1).val % 2 = 0 then
    v (ix2 (⟨(i 0).val, (i 0).isLt⟩ : Fin 200704) (⟨(i 1).val / 2, by have h : (i 1).val < 384 := (i 1).isLt; omega⟩ : Fin 192))
  else 0

/-- The spread matrix at an index, with the source index named by its coordinates: row the same, column halved. -/
theorem spreadRows_apply (v : M2.Idx → EReal) (i : N2.Idx) (y : M2.Idx) (q : ℕ)
    (h1 : (i 1).val = q) (hy0 : (y 0).val = (i 0).val) (hy1 : (y 1).val = q / 2) :
    spreadRows v i = if q % 2 = 0 then v y else 0 := by
  subst h1
  unfold spreadRows
  refine if_congr Iff.rfl (congrArg v (funext fun a => Fin.ext ?_)) rfl
  match a with
  | ⟨0, _⟩ => exact hy0.symm
  | ⟨1, _⟩ => exact hy1.symm

/-- The flat row number of a batch, a height and a width. -/
def rowOf (b : Fin 64) (h : Fin 56) (w : Fin 56) : Fin 200704 :=
  ⟨(b.val * 56 + h.val) * 56 + w.val, by have := b.isLt; have := h.isLt; have := w.isLt; omega⟩

@[simp] theorem rowOf_val (b : Fin 64) (h : Fin 56) (w : Fin 56) : (rowOf b h w).val = (b.val * 56 + h.val) * 56 + w.val := rfl

/-- Channels moved last, then the first three axes flattened: entry `(rowOf b h w, c)` of the matrix is entry
    `(b, c, h, w)` of the array. -/
theorem flatten_apply (x : A4.Idx → EReal) (hT : A4.Transposes [0, 2, 3, 1] A4t) (hR : A4t.ShapeCasts M2)
    (b : Fin 64) (c : Fin 192) (h : Fin 56) (w : Fin 56) :
    shapeCast M2 (transpose A4t [0, 2, 3, 1] x hT) hR (ix2 (rowOf b h w) c) = x (ix4 b c h w) := by
  refine (shapeCast_apply _ hR (ix2 (rowOf b h w) c) (ix4 b h w c) ?_).trans ?_
  · rw [Shape.rowMajor_val_four, Shape.rowMajor_val_two]
    show ((b.val * 56 + h.val) * 56 + w.val) * 192 + c.val = ((b.val * 56 + h.val) * 56 + w.val) * 192 + c.val
    rfl
  · refine transpose_apply [0, 2, 3, 1] x hT (ix4 b h w c) (ix4 b c h w) fun a => ?_
    match a with
    | ⟨0, _⟩ => rfl
    | ⟨1, _⟩ => rfl
    | ⟨2, _⟩ => rfl
    | ⟨3, _⟩ => rfl

/-- The matrix unflattened, then the column axis moved back to the channel position: entry `(b, q, h, w)` of the array
    is entry `(rowOf b h w, q)` of the matrix. -/
theorem unflatten_apply (y : N2.Idx → EReal) (hR : N2.ShapeCasts B4t) (hT : B4t.Transposes [0, 3, 1, 2] B4)
    (b : Fin 64) (q : Fin 384) (h : Fin 56) (w : Fin 56) :
    transpose B4 [0, 3, 1, 2] (shapeCast B4t y hR) hT (ix4 b q h w) = y (ix2 (rowOf b h w) q) := by
  refine (transpose_apply [0, 3, 1, 2] (shapeCast B4t y hR) hT (ix4 b q h w) (ix4 b h w q) fun a => ?_).trans ?_
  · match a with
    | ⟨0, _⟩ => rfl
    | ⟨1, _⟩ => rfl
    | ⟨2, _⟩ => rfl
    | ⟨3, _⟩ => rfl
  · refine shapeCast_apply y hR (ix4 b h w q) (ix2 (rowOf b h w) q) ?_
    rw [Shape.rowMajor_val_four, Shape.rowMajor_val_two]
    show ((b.val * 56 + h.val) * 56 + w.val) * 384 + q.val = ((b.val * 56 + h.val) * 56 + w.val) * 384 + q.val
    rfl

/-- SPREADING THE ROWS BETWEEN THE TWO RELAYOUTS IS SPREADING THE CHANNELS: flatten, spread every row, unflatten is the
    channel spread of the array. -/
theorem relaid_eq_spread (x : A4.Idx → EReal) (hT1 : A4.Transposes [0, 2, 3, 1] A4t) (hR1 : A4t.ShapeCasts M2)
    (hR2 : N2.ShapeCasts B4t) (hT2 : B4t.Transposes [0, 3, 1, 2] B4) :
    transpose B4 [0, 3, 1, 2] (shapeCast B4t (spreadRows (shapeCast M2 (transpose A4t [0, 2, 3, 1] x hT1) hR1)) hR2) hT2
      = Spread.spread x := by
  funext i
  obtain ⟨b, q, h, w, rfl⟩ : ∃ (b : Fin 64) (q : Fin 384) (h : Fin 56) (w : Fin 56), i = ix4 b q h w :=
    ⟨i 0, i 1, i 2, i 3, eq_ix4 i⟩
  rw [unflatten_apply, Spread.spread_ix4]
  rw [spreadRows_apply _ (ix2 (rowOf b h w) q) (ix2 (rowOf b h w) (Spread.half q)) q.val rfl rfl rfl]
  unfold Spread.spreadAt
  refine if_congr Iff.rfl ?_ rfl
  exact flatten_apply x hT1 hR1 b (Spread.half q) h w

end Cert.SpreadRows

end
-- ==== Proof.RegionRows.lean ====
/-
  The region's output array after all 28 grid points.

  Grid point `t` loads rows `7168·t … 7168·t + 7167` of the 200704 × 192 input matrix, and writes back the same rows of
  the 200704 × 384 output matrix, each output row being its input row spread onto the even columns (the one-hot
  product). The 28 row blocks tile the output matrix, so after the run the whole output matrix is the input matrix
  with every row spread: entry `(n, q)` is the input's `(n, q / 2)` for even `q` and zero for odd `q`.
-/
import proofs.«120600_g80788334838274_cont_9to1_m_29_6_alg».proof.Proof.Gen.KernelIdeal.Frame
import proofs.«120600_g80788334838274_cont_9to1_m_29_6_alg».proof.Proof.OneHotRow
import proofs.«120600_g80788334838274_cont_9to1_m_29_6_alg».proof.Proof.SpreadRows
import Idealize.ShloMosaic.Lib.Pipeline.Value

noncomputable section

namespace Cert.KernelIdeal.RegionRows

open Cert.KernelIdeal Cert.KernelIdeal.Gen Idealize.ShloMosaic Idealize.ShloMosaic.TcCoe Idealize.ShloMosaic.ValueIdx
open Idealize.SL.Sem
open Idealize.ShloMosaic.Pipeline (Dat)
open Cert.SpreadRows (spreadRows spreadRows_apply)

variable (m : (ℓ : Loc nD τ sig) → Buf (Elt Ideal) ℓ)

theorem hz : (![0, 0] : Fin 2 → Nat) = fun _ => 0 := funext fun a => by fin_cases a <;> rfl

/-- The printed index maps, decided over the grid: at point `t` both windows are at row block `t` and column block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- WHAT POINT `t` WRITES BACK is block `t` of the input matrix (as the region finds it) spread row by row. -/
theorem flushed_eq (c : Dev nD) (t : Fin cfg0.N) :
    (dats m 0 c).flushed 1 t = ((cfg0.win 1).blk t).view.read (Elt Ideal) (spreadRows (V m c main_v1)) := by
  show (cfg0.win 1).cut (grid0.coords t) ((dats m 0 c).after 1 t) = _
  rw [after0_1]
  unfold out0_1
  rw [View.canon_unit_zero hz]
  simp only [View.ld_unit_zero (S := S7168x192) hz]
  obtain ⟨e0, e1, e2, e3⟩ := idx_facts t
  funext j
  obtain ⟨r, q, rfl⟩ : ∃ (r : Fin 7168) (q : Fin 384), j = ix2 r q := ⟨j 0, j 1, eq_ix2 j⟩
  refine (OneHotRow.pay_apply (iblk m c 0 t) r q).trans ?_
  refine (spreadRows_apply (V m c main_v1) (((cfg0.win 1).blk t).view.emb (ix2 r q))
    (((cfg0.win 0).blk t).view.emb (ix2 r (Spread.half q))) q.val ?_ ?_ ?_).symm
  · show win0_1.index t (1 : Fin 2) * 384 + 1 * q.val = q.val
    omega
  · show win0_0.index t (0 : Fin 2) * 7168 + 1 * r.val = win0_1.index t (0 : Fin 2) * 7168 + 1 * r.val
    omega
  · show win0_0.index t (1 : Fin 2) * 192 + 1 * (q.val / 2) = q.val / 2
    omega

/-- An index of the output matrix is in point `t`'s block iff each coordinate is in the block's range on its axis. -/
theorem mem_blk (t : Fin cfg0.N) (i : S200704x384.Idx) :
    i ∈ ((cfg0.win 1).blk t).view.set ↔ ∀ a : Fin 2, win0_1.index t a * S7168x384.size a ≤ (i a).val ∧ (i a).val < win0_1.index t a * S7168x384.size a + S7168x384.size a := by
  show i ∈ ((View.whole main_v2).slice (win0_1.rect t)).set ↔ _
  rw [View.set_slice_whole, Rect.mem_set_unit]
  exact Iff.rfl

/-- Every index of the output matrix is in the block of the point numbered by its row divided by 7168. -/
theorem cover (i : S200704x384.Idx) :
    ∃ t : Fin cfg0.N, (cfg0.win 1).flush t = true ∧ i ∈ ((cfg0.win 1).blk t).view.set := by
  have hi0 : (i 0).val < 200704 := (i 0).isLt
  have hi1 : (i 1).val < 384 := (i 1).isLt
  have hN : cfg0.N = 28 := N_0
  let t : Fin cfg0.N := ⟨(i 0).val / 7168, by rw [hN]; omega⟩
  obtain ⟨-, -, e2, e3⟩ := idx_facts t
  have ht : t.val = (i 0).val / 7168 := rfl
  refine ⟨t, flush0_1 t, ?_⟩
  rw [mem_blk]
  intro a
  match a with
  | ⟨0, _⟩ => show win0_1.index t (0 : Fin 2) * 7168 ≤ (i 0).val ∧ (i 0).val < win0_1.index t (0 : Fin 2) * 7168 + 7168; omega
  | ⟨1, _⟩ => show win0_1.index t (1 : Fin 2) * 384 ≤ (i 1).val ∧ (i 1).val < win0_1.index t (1 : Fin 2) * 384 + 384; omega

/-- THE OUTPUT MATRIX after the run: the input matrix, as the region finds it, spread row by row. -/
theorem final (c : Dev nD) : (dats m 0 c).arrAt 1 cfg0.N = spreadRows (V m c main_v1) :=
  (dats m 0 c).arrAt_eq_of_cover 1 (spreadRows (V m c main_v1)) (fun t _ => flushed_eq m c t) cover

end Cert.KernelIdeal.RegionRows

end
-- ==== Proof.KernelValue.lean ====
/-
  The kernel program's result as a function of its argument.

  Before the region the program relays its argument out as a 200704 × 192 matrix (channels last, the other axes
  flattened); the region leaves the 200704 × 384 matrix whose rows are that matrix's rows spread onto the even columns;
  after the region the program undoes the relayout. So the result is the argument with its channels spread: channel
  `2c` of the result is channel `c` of the argument, every odd channel is zero.
-/
import proofs.«120600_g80788334838274_cont_9to1_m_29_6_alg».proof.Proof.Gen.KernelIdeal.Frame
import proofs.«120600_g80788334838274_cont_9to1_m_29_6_alg».proof.Proof.RegionRows
import proofs.«120600_g80788334838274_cont_9to1_m_29_6_alg».proof.Proof.SpreadRows
import Idealize.ShloMosaic.Lib.StableHlo.Run

noncomputable section

namespace Cert.KernelIdeal.KernelValue

open Cert.KernelIdeal Cert.KernelIdeal.Gen Idealize.ShloMosaic Idealize.ShloMosaic.TcCoe Idealize.ShloMosaic.ValueIdx
open Idealize.SL.Sem Idealize.ShloMosaic.StableHlo
open Cert.SpreadRows (spreadRows)

variable (m : (ℓ : Loc nD τ sig) → Buf (Elt Ideal) ℓ) (ρ : Dev nD → PrngReg)

/-- The matrix the region finds: the argument with its channel axis moved last and the other three axes flattened. -/
theorem V_main_v1 (c : Dev nD) :
    (V m c main_v1 : S200704x192.Idx → EReal)
      = shapeCast S200704x192 (transpose S64x56x56x192 [0, 2, 3, 1] (m ((c : Thread nD τ).loc main_arg0))
          transposes_S64x192x56x56_S64x56x56x192_0_2_3_1) shapeCasts_S64x56x56x192_S200704x192 := by
  show StableHlo.after hostOps0 (fun b => m (c, b)) (Proc.devRef .tc main_v1) = _
  after_results
  rfl

/-- The region's output matrix as the lines after the region find it: the flattened argument with every row spread. -/
theorem region_out (c : Dev nD) :
    (Pipeline.withArrays (cfgs 0).spec c (V0 m c) (fun w => (dats m 0 c).arrAt w (cfgs 0).N) (Proc.devRef .tc main_v2)
        : S200704x384.Idx → EReal)
      = spreadRows (shapeCast S200704x192 (transpose S64x56x56x192 [0, 2, 3, 1] (m ((c : Thread nD τ).loc main_arg0))
          transposes_S64x192x56x56_S64x56x56x192_0_2_3_1) shapeCasts_S64x56x56x192_S200704x192) :=
  ((Pipeline.withArrays_arr spec0 launch0.win.arr_inj c _ _ 1).trans (RegionRows.final m c)).trans
    (congrArg spreadRows (V_main_v1 m c))

/-- THE RESULT after the lines that follow the region: the argument with its channels spread. -/
theorem result_eq (c : Dev nD) :
    (Pipeline.afterTail₀ cfgs (dats m) 0 (V0 m) [hostOps1] c main_v4 : S64x384x56x56.Idx → EReal)
      = Spread.spread (m ((c : Thread nD τ).loc main_arg0)) := by
  unfold Pipeline.afterTail₀
  show StableHlo.after hostOps1 _ (Proc.devRef .tc main_v4) = _
  after_results
  show transpose S64x384x56x56 [0, 3, 1, 2]
      (shapeCast S64x56x56x384
        (Pipeline.withArrays (cfgs 0).spec c (V0 m c) (fun w => (dats m 0 c).arrAt w (cfgs 0).N) (Proc.devRef .tc main_v2))
        shapeCasts_S200704x384_S64x56x56x384)
      transposes_S64x56x56x384_S64x384x56x56_0_3_1_2 = _
  rw [region_out]
  exact SpreadRows.relaid_eq_spread _ _ _ _ _

/-- THE KERNEL PROGRAM'S RUN at the exact values: every weakly fair execution terminates with the result at the channel
    spread of the argument and the argument unchanged. -/
theorem run : θ_run defs (onTc (τ := τ) (main (F := Ideal))) ⟨m, fun _ => 0, ρ⟩ fun r => ∀ c : Dev nD,
      r.2.mem ((c.tc : Thread nD τ).loc main_v4) = Spread.spread (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v4 (Pipeline.mem_restRefs_of main_v4 (by decide) (by decide))).trans (result_eq m c),
       ((h c).2 main_arg0 (Pipeline.mem_restRefs_of main_arg0 (by decide) (by decide))).trans (W_main_arg0 m (dats m) c)⟩)
    (run_main m ρ)

end Cert.KernelIdeal.KernelValue

end
-- ==== Proof.RefRun.lean ====
/-
  THE REFERENCE'S RUN: @main as the list of its 12 host operations, and its run read back.

  The reference program is a straight line of host operations, each computing one buffer from earlier ones: a literal table of
  192 words, the zero scalar and its broadcast to the result's extents, the comparison of the table with zero, the sum of
  the table with 384, the selection between the two, the broadcast of the 192 selected words to a column, and one
  replacing scatter of the argument into the zeros at that column. Every weakly fair execution terminates with each buffer
  at its operation's function of the buffers it reads; composing the twelve gives the result buffer as ONE pure term of the
  argument's launch contents (`composed`), and leaves the argument as it was. What that term is as a function — the spread
  of the argument along the channel axis — is a separate statement about pure functions, proved elsewhere.
-/
import proofs.«120600_g80788334838274_cont_9to1_m_29_6_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 12 operations, in order. -/
abbrev ops : List (HloOp τ sig (Elt F)) :=
  [ nullary main_c (fun i => lit0 (S192.rowMajor i)),
    nullary main_cst (constant S_ .f32 0x00000000#32),
    unary main_cst main_v0 (broadcastInDim S64x384x56x56 ![] bcast_S_S64x384x56x56 : (⟨S_, .f32⟩ : BufTy).Contents (Elt F) → (⟨S64x384x56x56, .f32⟩ : BufTy).Contents (Elt F)),
    nullary main_c_0 (constantI S_ 32 0#32),
    unary main_c_0 main_v1 (broadcastInDim S192 ![] bcast_S_S192 : (⟨S_, .i32⟩ : BufTy).Contents (Elt F) → (⟨S192, .i32⟩ : BufTy).Contents (Elt F)),
    binary main_c main_v1 main_v2 (cmpi .slt : (⟨S192, .i32⟩ : BufTy).Contents (Elt F) → (⟨S192, .i32⟩ : BufTy).Contents (Elt F) → (⟨S192, .i1⟩ : BufTy).Contents (Elt F)),
    nullary main_c_1 (constantI S_ 32 384#32),
    unary main_c_1 main_v3 (broadcastInDim S192 ![] bcast_S_S192 : (⟨S_, .i32⟩ : BufTy).Contents (Elt F) → (⟨S192, .i32⟩ : BufTy).Contents (Elt F)),
    binary main_c main_v3 main_v4 (addi : (⟨S192, .i32⟩ : BufTy).Contents (Elt F) → (⟨S192, .i32⟩ : BufTy).Contents (Elt F) → (⟨S192, .i32⟩ : BufTy).Contents (Elt F)),
    ternary main_v2 main_v4 main_c main_v5 (select : (⟨S192, .i1⟩ : BufTy).Contents (Elt F) → (⟨S192, .i32⟩ : BufTy).Contents (Elt F) → (⟨S192, .i32⟩ : BufTy).Contents (Elt F) → (⟨S192, .i32⟩ : BufTy).Contents (Elt F)),
    unary main_v5 main_v6 (broadcastInDim S192x1 ![0] bcast_S192_S192x1_0 : (⟨S192, .i32⟩ : BufTy).Contents (Elt F) → (⟨S192x1, .i32⟩ : BufTy).Contents (Elt F)),
    ternary main_v0 main_v6 main_arg0 main_v7 ((fun x i u => Host.scatter scatter_S64x384x56x56_S192x1_S64x192x56x56_023_1_1_1 (fun _ b => b) x i u) : (⟨S64x384x56x56, .f32⟩ : BufTy).Contents (Elt F) → (⟨S192x1, .i32⟩ : BufTy).Contents (Elt F) → (⟨S64x192x56x56, .f32⟩ : BufTy).Contents (Elt F) → (⟨S64x384x56x56, .f32⟩ : BufTy).Contents (Elt F)) ]

/-- The program is the sequence of its operations. -/
theorem main_eq (c : Dev nD) : main (F := F) c = seq ops := rfl
/-- No buffer of the program is scoped. -/
theorem scopedRefs_eq : (Finset.univ.filter fun b : Ref sig .tc => b.isScoped) = ∅ := by decide
/-- No semaphore of the program is scoped (it has none). -/
theorem scopedSems_eq : (Finset.univ.filter fun sm : SemLoc sig => sm.isScoped .tc) = ∅ := by decide
/-- Every operation touches buffers of the TensorCore's table only. -/
theorem ops_sub : (ops : List (HloOp τ sig (Elt F))).Forall fun op => op.bufs ⊆ tcRefs τ sig :=
  ⟨nullary_bufs_sub .., nullary_bufs_sub .., unary_bufs_sub .., nullary_bufs_sub .., unary_bufs_sub .., binary_bufs_sub ..,
   nullary_bufs_sub .., unary_bufs_sub .., binary_bufs_sub .., ternary_bufs_sub .., unary_bufs_sub .., ternary_bufs_sub ..⟩

/-- THE OPERATIONS COMPOSED, as a function of the argument `x`: the replacing scatter of `x` into the array of zeros
    (the zero word broadcast to 64 × 384 × 56 × 56), at the index column computed from the literal table (each entry
    compared with zero, 384 added where it is negative, the 192 words broadcast to a column of one-word rows). -/
abbrev composed (x : S64x192x56x56.Idx → F .f32) : S64x384x56x56.Idx → F .f32 :=
  Host.scatter scatter_S64x384x56x56_S192x1_S64x192x56x56_023_1_1_1 (fun _ b => b)
    (broadcastInDim S64x384x56x56 ![] bcast_S_S64x384x56x56 (constant S_ .f32 0x00000000#32))
    (broadcastInDim S192x1 ![0] bcast_S192_S192x1_0
      (select (cmpi .slt (fun i => lit0 (S192.rowMajor i)) (broadcastInDim S192 ![] bcast_S_S192 (constantI S_ 32 0#32)))
        (addi (fun i => lit0 (S192.rowMajor i)) (broadcastInDim S192 ![] bcast_S_S192 (constantI S_ 32 384#32)))
        (fun i => lit0 (S192.rowMajor i))))
    x

set_option maxHeartbeats 400000 in
/-- On every device, for any float values, from any memory with zero counters: every weakly fair execution of
    @main terminates with the result buffer at the operations' composed term of the argument's launch contents, and the
    argument unchanged. Each operation's result is read off the fold of the operation list; the scatter is never
    evaluated, only named. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7) = composed (m ((c.tc : Thread nD τ).loc main_arg0))
      ∧ r.2.mem ((c.tc : Thread nD τ).loc main_arg0) = m ((c.tc : Thread nD τ).loc main_arg0) :=
  (θ_run defs _ _).mono (fun _ h c => ⟨(h c main_v7).trans (by after_results; rfl),
      (h c main_arg0).trans (by after_results)⟩)
    (run_seq scopedRefs_eq scopedSems_eq defs main (fun _ => ops) main_eq (fun _ => ops_sub) m ρ)

end Cert.ReferenceIdeal.RefRun

end
-- ==== Proof.LibScatterSet.lean ====
/-
  A `stablehlo.scatter` READ AT ONE RESULT INDEX, for any shapes, dimension numbers, element type and body.

  `Host.scatter d f x idx upd` is a left fold over the update indices in row-major order: the step for update index
  `j` replaces the accumulator's element at `d.resultIdx? j idx` (when that index is inside the operand) by `f` of
  that element and `upd j`, and leaves every other element as it was. Reading the fold at ONE result index `i` needs
  only to know which update indices land on `i`:

  * `scatter_miss`: no update index lands on `i`  ⟹  the result at `i` is the operand's element `x i`;
  * `scatter_hit`:  exactly one update index `j` lands on `i`  ⟹  the result at `i` is `f (x i) (upd j)`;
  * `scatter_set_miss`, `scatter_set_hit`: the same for the replacing body `fun _ b => b` (`x.at[…].set(v)`), where
    the hit reads `upd j`.

  Both are proved for the fold over an ARBITRARY list of row-major positions, by induction on the list with the
  accumulator general (`foldl_miss`, `foldl_hit`), and then read at the list of all positions. Nothing here depends
  on the shapes, so nothing is ever evaluated: at a program's literal shapes the lemmas are applied, never unfolded.
-/
import Idealize.ShloMosaic.PureOps.ShapeOps

namespace Idealize.ShloMosaic.ScatterSet

variable {s si u : Shape} {α : Type} {w : Nat}

/-- One step of the scatter's fold: the update at row-major position `n` applied to the accumulator `r`. -/
def step (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

/-- The scatter is the fold of `step` over all row-major positions of the updates (its definition). -/
theorem scatter_eq_foldl (d : ScatterDims s si u) (f : α → α → α) (x : s.Idx → α) (idx : IVec si w) (upd : u.Idx → α) :
    Host.scatter d f x idx upd = (List.finRange u.numel).foldl (step d f idx upd) x := rfl

/-- A step whose update lands on `i` combines the element at `i` with the update. -/
theorem step_hit (d : ScatterDims s si u) (f : α → α → α) (idx : IVec si w) (upd : u.Idx → α) (r : s.Idx → α)
    (n : Fin u.numel) (i : s.Idx) (h : d.resultIdx? (u.rowMajor.symm n) idx = some i) :
    step d f idx upd r n i = f (r i) (upd (u.rowMajor.symm n)) := by
  unfold step
  rw [h]
  exact if_pos rfl

/-- A step whose update does not land on `i` (it lands elsewhere, or is dropped) leaves the element at `i`. -/
theorem step_miss (d : ScatterDims s si u) (f : α → α → α) (idx : IVec si w) (upd : u.Idx → α) (r : s.Idx → α)
    (n : Fin u.numel) (i : s.Idx) (h : d.resultIdx? (u.rowMajor.symm n) idx ≠ some i) :
    step d f idx upd r n i = r i := by
  unfold step
  cases hr : d.resultIdx? (u.rowMajor.symm n) idx with
  | none => rfl
  | some i' =>
    have hne : i ≠ i' := fun e => h (by rw [hr, e])
    exact if_neg hne

/-- The fold over any list of positions none of which lands on `i` leaves the element at `i`. -/
theorem foldl_miss (d : ScatterDims s si u) (f : α → α → α) (idx : IVec si w) (upd : u.Idx → α) (i : s.Idx)
    (l : List (Fin u.numel)) (h : ∀ n ∈ l, d.resultIdx? (u.rowMajor.symm n) idx ≠ some i) (r : s.Idx → α) :
    l.foldl (step d f idx upd) r i = r i := by
  induction l generalizing r with
  | nil => rfl
  | cons n l ih =>
    rw [List.foldl_cons, ih (fun m hm => h m (List.mem_cons_of_mem _ hm)),
      step_miss d f idx upd r n i (h n List.mem_cons_self)]

/-- The fold over any list WITHOUT REPEATS of positions, of which only `j`'s lands on `i`: the element at `i` is
    combined with `upd j` once if `j`'s position is in the list, and is left as it was if not. -/
theorem foldl_hit [DecidableEq (Fin u.numel)] (d : ScatterDims s si u) (f : α → α → α) (idx : IVec si w) (upd : u.Idx → α) (i : s.Idx) (j : u.Idx)
    (hj : d.resultIdx? j idx = some i) (huniq : ∀ j', d.resultIdx? j' idx = some i → j' = j)
    (l : List (Fin u.numel)) (hl : l.Nodup) (r : s.Idx → α) :
    l.foldl (step d f idx upd) r i = if u.rowMajor j ∈ l then f (r i) (upd j) else r i := by
  induction l generalizing r with
  | nil => rfl
  | cons n l ih =>
    have hn : n ∉ l := (List.nodup_cons.mp hl).1
    rw [List.foldl_cons, ih (List.nodup_cons.mp hl).2]
    by_cases hnj : n = u.rowMajor j
    · -- this step is `j`'s: it lands on `i`, and `j`'s position does not come again
      have hsym : u.rowMajor.symm n = j := by rw [hnj, Equiv.symm_apply_apply]
      have hnot : u.rowMajor j ∉ l := hnj ▸ hn
      rw [if_neg hnot, if_pos (hnj ▸ List.mem_cons_self),
        step_hit d f idx upd r n i (by rw [hsym]; exact hj), hsym]
    · -- this step is another update's: it does not land on `i`
      have hmiss : d.resultIdx? (u.rowMajor.symm n) idx ≠ some i := fun e =>
        hnj (by rw [← huniq _ e, Equiv.apply_symm_apply])
      rw [step_miss d f idx upd r n i hmiss]
      by_cases hm : u.rowMajor j ∈ l
      · rw [if_pos hm, if_pos (List.mem_cons_of_mem _ hm)]
      · rw [if_neg hm, if_neg (fun hc => (List.mem_cons.mp hc).elim (fun e => hnj e.symm) hm)]

/-- THE SCATTER AT AN INDEX NO UPDATE LANDS ON is the operand there. -/
theorem scatter_miss (d : ScatterDims s si u) (f : α → α → α) (x : s.Idx → α) (idx : IVec si w) (upd : u.Idx → α)
    (i : s.Idx) (h : ∀ j, d.resultIdx? j idx ≠ some i) : Host.scatter d f x idx upd i = x i := by
  rw [scatter_eq_foldl]
  exact foldl_miss d f idx upd i _ (fun n _ => h _) x

/-- THE SCATTER AT AN INDEX EXACTLY ONE UPDATE LANDS ON is the body applied to the operand there and that update. -/
theorem scatter_hit (d : ScatterDims s si u) (f : α → α → α) (x : s.Idx → α) (idx : IVec si w) (upd : u.Idx → α)
    (i : s.Idx) (j : u.Idx) (hj : d.resultIdx? j idx = some i) (huniq : ∀ j', d.resultIdx? j' idx = some i → j' = j) :
    Host.scatter d f x idx upd i = f (x i) (upd j) := by
  rw [scatter_eq_foldl, foldl_hit d f idx upd i j hj huniq _ (List.nodup_finRange _) x,
    if_pos (List.mem_finRange _)]

/-- A REPLACING scatter (`x.at[…].set(v)`) at an index no update lands on is the operand there. -/
theorem scatter_set_miss (d : ScatterDims s si u) (x : s.Idx → α) (idx : IVec si w) (upd : u.Idx → α)
    (i : s.Idx) (h : ∀ j, d.resultIdx? j idx ≠ some i) : Host.scatter d (fun _ b => b) x idx upd i = x i :=
  scatter_miss d _ x idx upd i h

/-- A REPLACING scatter (`x.at[…].set(v)`) at an index exactly one update lands on is that update. -/
theorem scatter_set_hit (d : ScatterDims s si u) (x : s.Idx → α) (idx : IVec si w) (upd : u.Idx → α)
    (i : s.Idx) (j : u.Idx) (hj : d.resultIdx? j idx = some i) (huniq : ∀ j', d.resultIdx? j' idx = some i → j' = j) :
    Host.scatter d (fun _ b => b) x idx upd i = upd j :=
  scatter_hit d _ x idx upd i j hj huniq

end Idealize.ShloMosaic.ScatterSet
-- ==== Proof.ScatterLanding.lean ====
/-
  WHERE THE SCATTER'S UPDATES LAND, at the program's literal shapes.

  The reference's one scatter writes an update array of extents 64 × 192 × 56 × 56 into an operand of extents
  64 × 384 × 56 × 56. Its dimension numbers make axes 0, 2, 3 of the updates window axes onto axes 0, 2, 3 of the operand,
  and axis 1 of the updates the one scatter axis: update index `(b, k, h, w)` reads ONE start component, the word at row
  `k` of the index column, and adds it on operand axis 1 (the inserted axis, whose window coordinate is 0). So when row `k` of the
  column holds `2k` as a signed word, update index `(b, k, h, w)` lands on result index `(b, 2k, h, w)` (`landing`),
  which is inside the operand for every `k < 192`. Two consequences, for any operand `x`, any updates `upd`, any element type:

  * `scatter_even`: the landing map is injective, so result index `(b, 2k, h, w)` is hit by the one update index
    `(b, k, h, w)` and the replacing scatter reads `upd (b, k, h, w)` there;
  * `scatter_odd`: a result index whose channel is odd is hit by no update index (`2k` is even), and the scatter reads
    the operand `x` there.

  The index column is a VARIABLE here, known only through its words `hidx`; the operand and the updates are variables too.
-/
import proofs.«120600_g80788334838274_cont_9to1_m_29_6_alg».proof.Proof.Gen.ReferenceIdeal
import proofs.«120600_g80788334838274_cont_9to1_m_29_6_alg».proof.Proof.LibScatterSet
import Idealize.ShloMosaic.Lib.ValueIdx

namespace Cert.ReferenceIdeal.Landing

open Cert.ReferenceIdeal Cert.ReferenceIdeal.Gen Idealize.ShloMosaic Idealize.ShloMosaic.ValueIdx

/-- The scatter's dimension numbers: update window axes `[0, 2, 3]`, inserted window axis `[1]`, the one start component
    going to operand axis `1`, the index vector on axis `1` of the index column. -/
abbrev D : ScatterDims S64x384x56x56 S192x1 S64x192x56x56 := scatter_S64x384x56x56_S192x1_S64x192x56x56_023_1_1_1

/-- Update index `(b, k, h, w)` reads its one start component at row `k` of the index column. -/
theorem siIdx_eq (b : Fin 64) (k : Fin 192) (h w : Fin 56) (c : Fin D.scatterDimsToOperandDims.length) :
    D.siIdx (ix4 b k h w) c = ix2 k 0 := by
  funext a
  match a with
  | ⟨0, _⟩ => rfl
  | ⟨1, _⟩ => exact Fin.ext (by have := c.isLt; show c.val = 0; change c.val < 1 at this; omega)

/-! The window's start on each operand axis: the column's word, read signed, on axis 1; zero on the others. -/

theorem start_0 (idx : IVec S192x1 32) (b : Fin 64) (k : Fin 192) (h w : Fin 56) : D.start (ix4 b k h w) idx 0 = 0 := rfl
theorem start_1 (idx : IVec S192x1 32) (b : Fin 64) (k : Fin 192) (h w : Fin 56) :
    D.start (ix4 b k h w) idx 1 = (idx (ix2 k 0)).toInt := by
  unfold ScatterDims.start
  rw [dif_pos (by decide), siIdx_eq]
theorem start_2 (idx : IVec S192x1 32) (b : Fin 64) (k : Fin 192) (h w : Fin 56) : D.start (ix4 b k h w) idx 2 = 0 := rfl
theorem start_3 (idx : IVec S192x1 32) (b : Fin 64) (k : Fin 192) (h w : Fin 56) : D.start (ix4 b k h w) idx 3 = 0 := rfl

/-! The window coordinate on each operand axis: the update's own coordinate on axes 0, 2, 3; zero on the inserted axis 1. -/

theorem window_0 (b : Fin 64) (k : Fin 192) (h w : Fin 56) : D.window (ix4 b k h w) 0 = b.val := rfl
theorem window_1 (b : Fin 64) (k : Fin 192) (h w : Fin 56) : D.window (ix4 b k h w) 1 = 0 := rfl
theorem window_2 (b : Fin 64) (k : Fin 192) (h w : Fin 56) : D.window (ix4 b k h w) 2 = h.val := rfl
theorem window_3 (b : Fin 64) (k : Fin 192) (h w : Fin 56) : D.window (ix4 b k h w) 3 = w.val := rfl

/-- Twice a channel number below 192 is a channel number below 384. -/
def twice (k : Fin 192) : Fin 384 := ⟨2 * k.val, by omega⟩

theorem twice_val (k : Fin 192) : (twice k).val = 2 * k.val := rfl

/-- THE LANDING INDEX: when row `k` of the index column holds `2k`, update index `(b, k, h, w)` lands on result index
    `(b, 2k, h, w)` — start plus window coordinate on every axis, each sum inside the operand's extent. -/
theorem landing (idx : IVec S192x1 32) (hidx : ∀ k : Fin 192, (idx (ix2 k 0)).toInt = 2 * (k.val : Int))
    (b : Fin 64) (k : Fin 192) (h w : Fin 56) :
    D.resultIdx? (ix4 b k h w) idx = some (ix4 b (twice k) h w) := by
  have hb := b.isLt; have hk := k.isLt; have hh := h.isLt; have hw := w.isLt
  have hall : ∀ a, 0 ≤ D.start (ix4 b k h w) idx a + D.window (ix4 b k h w) a
      ∧ D.start (ix4 b k h w) idx a + D.window (ix4 b k h w) a < S64x384x56x56.size a := by
    intro a
    match a with
    | ⟨0, _⟩ =>
      show 0 ≤ D.start (ix4 b k h w) idx 0 + (D.window (ix4 b k h w) 0 : Int)
        ∧ D.start (ix4 b k h w) idx 0 + (D.window (ix4 b k h w) 0 : Int) < ((64 : Nat) : Int)
      rw [start_0, window_0]; omega
    | ⟨1, _⟩ =>
      show 0 ≤ D.start (ix4 b k h w) idx 1 + (D.window (ix4 b k h w) 1 : Int)
        ∧ D.start (ix4 b k h w) idx 1 + (D.window (ix4 b k h w) 1 : Int) < ((384 : Nat) : Int)
      rw [start_1, window_1, hidx k]; omega
    | ⟨2, _⟩ =>
      show 0 ≤ D.start (ix4 b k h w) idx 2 + (D.window (ix4 b k h w) 2 : Int)
        ∧ D.start (ix4 b k h w) idx 2 + (D.window (ix4 b k h w) 2 : Int) < ((56 : Nat) : Int)
      rw [start_2, window_2]; omega
    | ⟨3, _⟩ =>
      show 0 ≤ D.start (ix4 b k h w) idx 3 + (D.window (ix4 b k h w) 3 : Int)
        ∧ D.start (ix4 b k h w) idx 3 + (D.window (ix4 b k h w) 3 : Int) < ((56 : Nat) : Int)
      rw [start_3, window_3]; omega
  unfold ScatterDims.resultIdx?
  rw [dif_pos hall]
  refine congrArg some (funext fun a => Fin.ext ?_)
  match a with
  | ⟨0, _⟩ =>
    show (D.start (ix4 b k h w) idx 0 + (D.window (ix4 b k h w) 0 : Int)).toNat = b.val
    rw [start_0, window_0]; omega
  | ⟨1, _⟩ =>
    show (D.start (ix4 b k h w) idx 1 + (D.window (ix4 b k h w) 1 : Int)).toNat = 2 * k.val
    rw [start_1, window_1, hidx k]; omega
  | ⟨2, _⟩ =>
    show (D.start (ix4 b k h w) idx 2 + (D.window (ix4 b k h w) 2 : Int)).toNat = h.val
    rw [start_2, window_2]; omega
  | ⟨3, _⟩ =>
    show (D.start (ix4 b k h w) idx 3 + (D.window (ix4 b k h w) 3 : Int)).toNat = w.val
    rw [start_3, window_3]; omega

/-- Every index of the updates is `ix4` of its four coordinates, of literal extents. -/
theorem exists_ix4_upd (j : S64x192x56x56.Idx) : ∃ (b : Fin 64) (k : Fin 192) (h w : Fin 56), j = ix4 b k h w :=
  ⟨_, _, _, _, eq_ix4 j⟩

/-- ON AN EVEN CHANNEL `2k` the replacing scatter reads the update at channel `k`: `(b, k, h, w)` lands there, and an
    update index `(b', k', h', w')` landing there has `b' = b`, `2k' = 2k`, `h' = h`, `w' = w`, so it is the same one. -/
theorem scatter_even {α : Type} (x : S64x384x56x56.Idx → α) (idx : IVec S192x1 32)
    (hidx : ∀ k : Fin 192, (idx (ix2 k 0)).toInt = 2 * (k.val : Int)) (upd : S64x192x56x56.Idx → α)
    (b : Fin 64) (k : Fin 192) (h w : Fin 56) :
    Host.scatter D (fun _ v => v) x idx upd (ix4 b (twice k) h w) = upd (ix4 b k h w) := by
  refine ScatterSet.scatter_set_hit D x idx upd _ (ix4 b k h w) (landing idx hidx b k h w) ?_
  intro j' hj'
  obtain ⟨b', k', h', w', rfl⟩ := exists_ix4_upd j'
  rw [landing idx hidx] at hj'
  have e := Option.some.inj hj'
  have e0 : b' = b := congrFun e 0
  have e1 : twice k' = twice k := congrFun e 1
  have e2 : h' = h := congrFun e 2
  have e3 : w' = w := congrFun e 3
  have ek : k' = k := Fin.ext (by have := congrArg Fin.val e1; rw [twice_val, twice_val] at this; omega)
  rw [e0, ek, e2, e3]

/-- ON AN ODD CHANNEL the replacing scatter reads the operand: an update index landing there would make the channel
    number `2k'`, which is even. -/
theorem scatter_odd {α : Type} (x : S64x384x56x56.Idx → α) (idx : IVec S192x1 32)
    (hidx : ∀ k : Fin 192, (idx (ix2 k 0)).toInt = 2 * (k.val : Int)) (upd : S64x192x56x56.Idx → α)
    (b : Fin 64) (c : Fin 384) (h w : Fin 56) (hc : c.val % 2 = 1) :
    Host.scatter D (fun _ v => v) x idx upd (ix4 b c h w) = x (ix4 b c h w) := by
  refine ScatterSet.scatter_set_miss D x idx upd _ ?_
  intro j' hj'
  obtain ⟨b', k', h', w', rfl⟩ := exists_ix4_upd j'
  rw [landing idx hidx] at hj'
  have e1 : twice k' = c := congrFun (Option.some.inj hj') 1
  have := congrArg Fin.val e1
  rw [twice_val] at this
  omega

end Cert.ReferenceIdeal.Landing
-- ==== Proof.IndexColumn.lean ====
/-
  THE INDEX COLUMN'S WORDS.

  The reference builds the scatter's index column from a literal table of 192 words: entry `k` of the table is `2k`.
  Each entry `c` goes through the wrap of negative indices, `if c < 0 then c + 384 else c` (a signed comparison), and
  the 192 wrapped words are laid out as a column of 192 rows of one word. Every entry is at most 382, so as a signed 32-bit
  word it is not negative and the wrap never fires: row `k` of the column holds `2k` (`col_toInt`). The 192 cases are
  closed terms of integer-word operations and are checked by evaluation, one by one.
-/
import proofs.«120600_g80788334838274_cont_9to1_m_29_6_alg».proof.Proof.Gen.ReferenceIdeal
import Idealize.ShloMosaic.Lib.ValueIdx

namespace Cert.ReferenceIdeal.IndexColumn

open Cert.ReferenceIdeal Cert.ReferenceIdeal.Gen Idealize.ShloMosaic Idealize.ShloMosaic.ValueIdx

/-- The word the program computes from table entry `k`: the entry, plus 384 if it is negative as a signed word. -/
def word (k : Fin 192) : BitVec 32 :=
  Scalar.select (IntOp.cmpi .slt (lit0 k) 0#32) (IntOp.addi (lit0 k) 384#32) (lit0 k)

/-- Every table entry is twice its position, which is not negative, so the wrap leaves it: 192 evaluations. -/
theorem word_toInt : ∀ k : Fin 192, (word k).toInt = 2 * (k.val : Int) := by decide +kernel

/-- The index column as the program computes it: the table, each entry compared with zero, the sum with 384 selected
    where the comparison holds, the result broadcast from 192 words to a column of 192 one-word rows. -/
abbrev col : IVec S192x1 32 :=
  broadcastInDim S192x1 ![0] bcast_S192_S192x1_0
    (select (cmpi .slt (fun i => lit0 (S192.rowMajor i)) (broadcastInDim S192 ![] bcast_S_S192 (constantI S_ 32 0#32)))
       (addi (fun i => lit0 (S192.rowMajor i)) (broadcastInDim S192 ![] bcast_S_S192 (constantI S_ 32 384#32)))
       (fun i => lit0 (S192.rowMajor i)))

/-- A vector of 192 elements broadcast to a column reads, at row `k`, its element `k`. -/
theorem bcast_col_apply {α : Type} (v : S192.Idx → α) (k : Fin 192) (z : Fin 1) :
    broadcastInDim S192x1 ![0] bcast_S192_S192x1_0 v (ix2 k z) = v (ix1 k) := by
  unfold broadcastInDim
  refine congrArg v (funext fun a => ?_)
  match a with
  | ⟨0, _⟩ => rfl

/-- The row-major position of index `k` of a one-axis shape is `k`. -/
theorem rowMajor_ix1 (k : Fin 192) : S192.rowMajor (ix1 k) = k := Fin.ext (Shape.rowMajor_val_one _)

/-- Row `k` of the column is the wrapped table entry `k`: every operation on the way is elementwise. -/
theorem col_apply (k : Fin 192) : col (ix2 k 0) = word k := by
  rw [col, bcast_col_apply]
  show word (S192.rowMajor (ix1 k)) = word k
  rw [rowMajor_ix1]

/-- ROW `k` OF THE INDEX COLUMN HOLDS `2k`, read as a signed word. -/
theorem col_toInt (k : Fin 192) : (col (ix2 k 0)).toInt = 2 * (k.val : Int) := by
  rw [col_apply]; exact word_toInt k

end Cert.ReferenceIdeal.IndexColumn
-- ==== Proof.RefValue.lean ====
/-
  THE REFERENCE'S VALUE: at the ideal values the reference writes the spread of its argument.

  The run leaves the result buffer at the replacing scatter of the argument `x` into an array of zeros at the index column
  (RefRun.lean `composed`). Read at a result index `(b, j, h, w)`:

  * `j = 2k` even: update index `(b, k, h, w)` is the only one landing there (row `k` of the column holds `2k`, and
    `k ↦ 2k` is injective), so the scatter reads `x (b, k, h, w)` — which is what the spread array holds on channel `2k`;
  * `j` odd: no update index lands there, so the scatter reads the operand, the array of zeros, whose every element is the
    extended real `0` — which is what the spread array holds on an odd channel.

  The zeros and the index column enter the argument only through these two facts (every element zero; row `k` holds
  `2k`), so both are replaced by variables carrying them before any index is read. The last theorem restates the run with
  the result at `Cert.Spread.spread` of the argument.
-/
import proofs.«120600_g80788334838274_cont_9to1_m_29_6_alg».proof.Proof.RefRun
import proofs.«120600_g80788334838274_cont_9to1_m_29_6_alg».proof.Proof.Spread
import proofs.«120600_g80788334838274_cont_9to1_m_29_6_alg».proof.Proof.ScatterLanding
import proofs.«120600_g80788334838274_cont_9to1_m_29_6_alg».proof.Proof.IndexColumn
import Idealize.ShloMosaic.Lib.IdealHost

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The array of zeros reads zero everywhere: the zero word of the 32-bit format is the extended real `0`. -/
theorem zeros_apply (i : S64x384x56x56.Idx) :
    broadcastInDim S64x384x56x56 ![] bcast_S_S64x384x56x56 (constant (F := Ideal) S_ .f32 0x00000000#32) i = 0 := by
  rw [broadcastInDim_scalar_apply, constant_apply, Ideal.ofBits_zero_f32]

set_option maxHeartbeats 400000 in
/-- THE VALUE: at the ideal values the operations composed are the spread of the argument along the channel axis. -/
theorem value (x : S64x192x56x56.Idx → EReal) : RefRun.composed (F := Ideal) x = Cert.Spread.spread x := by
  show Host.scatter Landing.D (fun _ b => b)
      (broadcastInDim S64x384x56x56 ![] bcast_S_S64x384x56x56 (constant (F := Ideal) S_ .f32 0x00000000#32))
      IndexColumn.col x = Cert.Spread.spread x
  have hz := zeros_apply
  generalize broadcastInDim S64x384x56x56 ![] bcast_S_S64x384x56x56 (constant (F := Ideal) S_ .f32 0x00000000#32) = z at hz ⊢
  have hidx := IndexColumn.col_toInt
  generalize IndexColumn.col = idx at hidx ⊢
  funext i
  obtain ⟨b, j, h, w, rfl⟩ : ∃ (b : Fin 64) (j : Fin 384) (h w : Fin 56), i = ix4 b j h w := ⟨_, _, _, _, eq_ix4 i⟩
  rw [Cert.Spread.spread_ix4]
  rcases Nat.mod_two_eq_zero_or_one j.val with he | ho
  · obtain ⟨k, rfl⟩ : ∃ k : Fin 192, j = Landing.twice k :=
      ⟨Cert.Spread.half j, Fin.ext (by rw [Landing.twice_val, Cert.Spread.half_val]; omega)⟩
    rw [Landing.scatter_even z idx hidx x b k h w,
      Cert.Spread.spreadAt_even x b k (Landing.twice k) h w (Landing.twice_val k)]
  · rw [Landing.scatter_odd z idx hidx x b j h w ho, hz, Cert.Spread.spreadAt_odd x b j h w ho]

set_option maxHeartbeats 400000 in
/-- THE REFERENCE'S RUN AT THE IDEAL VALUES, with its value: on every device, from any memory with zero counters, every
    weakly fair execution of @main terminates with the result buffer at the spread of the argument's launch contents, and
    the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v7) = Cert.Spread.spread (m ((c.tc : Thread nD τ).loc main_arg0))
      ∧ r.2.mem ((c.tc : Thread nD τ).loc main_arg0) = m ((c.tc : Thread nD τ).loc main_arg0) :=
  (θ_run _ _ _).mono (fun _ h c => ⟨(h c).1.trans (value _), (h c).2⟩) (RefRun.run m ρ)

end Cert.ReferenceIdeal.RefValue

end
-- ==== Proof.lean ====
/-
  Zero-interleaving the channels of a 64 × 192 × 56 × 56 array: the kernel against its reference, at the exact values.

  Both programs compute the array `out` of extents 64 × 384 × 56 × 56 with `out (b, 2c, h, w) = x (b, c, h, w)` and
  `out (b, j, h, w) = 0` for odd `j` (`Cert.Spread.spread`, Proof/Spread.lean).

  * The reference writes `x` onto a zero array with one replacing scatter whose index column holds the words
    `0, 2, 4, …, 382`: update `(b, c, h, w)` lands at `(b, 2c, h, w)`; distinct updates land at distinct places, every
    even channel is landed on exactly once and no odd channel ever (Proof/LibScatterSet.lean for a replacing scatter in
    general, Proof/ScatterLanding.lean and Proof/IndexColumn.lean for this one, Proof/RefRun.lean and Proof/RefValue.lean
    for the program's run).
  * The kernel moves the channel axis last and flattens the other axes into 200704 rows, multiplies each block of 7168
    rows by the 192 × 384 one-hot matrix `E (c, 2c) = 1`, and undoes the relayout. A row times `E` is the row spread
    onto the even columns: `∑ c, X (r, c) · E (c, q)` keeps the one term `c = q / 2` for even `q` and none for odd `q`,
    since `x · 0 = 0` and `x · 1 = x` for every extended real `x` (Proof/OneHotRow.lean); the 28 row blocks tile the
    matrix (Proof/RegionRows.lean); and spreading rows between the two relayouts is spreading channels
    (Proof/SpreadRows.lean, Proof/KernelValue.lean).

  No step uses that the inputs are finite: `x · 0 = 0` holds at the infinities of the extended reals as well. The kernel
  was idealized without any rewrite, so the idealization claim is trivial; the three frame claims are the generated frame
  runs of the two kernel programs and the reference's run with its result forgotten.
-/
import proofs.«120600_g80788334838274_cont_9to1_m_29_6_alg».proof.Defs
import proofs.«120600_g80788334838274_cont_9to1_m_29_6_alg».proof.Proof.Gen.Kernel
import proofs.«120600_g80788334838274_cont_9to1_m_29_6_alg».proof.Proof.Gen.Kernel.Frame
import proofs.«120600_g80788334838274_cont_9to1_m_29_6_alg».proof.Proof.Gen.KernelIdeal
import proofs.«120600_g80788334838274_cont_9to1_m_29_6_alg».proof.Proof.Gen.KernelIdeal.Frame
import proofs.«120600_g80788334838274_cont_9to1_m_29_6_alg».proof.Proof.Gen.ReferenceIdeal
import proofs.«120600_g80788334838274_cont_9to1_m_29_6_alg».proof.Proof.Gen.Pre_finite_inputs
import proofs.«120600_g80788334838274_cont_9to1_m_29_6_alg».proof.Proof.KernelValue
import proofs.«120600_g80788334838274_cont_9to1_m_29_6_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its argument: the generated frame run. -/
theorem frame_kernel : Cert.frame_Kernel := fun m ρ _ => Cert.Kernel.Gen.frame m ρ

/-- The idealized kernel program runs and keeps its argument: the generated frame run. -/
theorem frame_kernelIdeal : Cert.frame_KernelIdeal := fun m ρ _ => Cert.KernelIdeal.Gen.frame m ρ

/-- The reference runs and keeps its argument: its run with the result forgotten. -/
theorem frame_referenceIdeal : Cert.frame_ReferenceIdeal := fun m ρ _ =>
  (θ_run Cert.ReferenceIdeal.defs _ _).mono (fun _ h c => (h c).2) (Cert.ReferenceIdeal.RefValue.run m ρ)

/-- The kernel was idealized without any rewrite. -/
theorem preserves : Cert.preserves_Kernel_KernelIdeal := trivial

/-- At the exact values, from memories that agree on the argument, the kernel program and the reference both end with
    the argument's channels spread (even channels the argument's, odd channels zero), and keep the argument. -/
theorem algebraic : Cert.algebraic_KernelIdeal_ReferenceIdeal := by
  intro m ρ m' ρ' _ hagree
  refine ⟨fun c => Cert.Spread.spread (m ((c.tc : Thread Cert.KernelIdeal.nD Cert.KernelIdeal.τ).loc Cert.KernelIdeal.main_arg0)),
    Cert.KernelIdeal.KernelValue.run m ρ, ?_⟩
  refine (θ_run Cert.ReferenceIdeal.defs _ _).mono (fun _ h c => ⟨(h c).1.trans ?_, (h c).2⟩)
    (Cert.ReferenceIdeal.RefValue.run m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
